-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x512 : Shape := ⟨2, ![128, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  main_v18

def fn {F : FTy → Type} [FloatOps F] (main_arg0 : FVec F S50000x512 .f32) (main_arg1 : IVec S2x1600000 32) (main_arg2 : FVec F S512x128 .f32) (main_arg3 : FVec F S128 .f32) (main_arg4 : FVec F S128x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_v13 main_v16
-- ==== Kernel.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x512 : Shape := ⟨2, ![128, 512]⟩
abbrev S50000x128 : Shape := ⟨2, ![50000, 128]⟩
abbrev S2000x512 : Shape := ⟨2, ![2000, 512]⟩
abbrev S2000x128 : Shape := ⟨2, ![2000, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1650000x128 : Shape := ⟨2, ![1650000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 53
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x512, .f32⟩
  | .hbm, ⟨5, _⟩ => ⟨S50000x128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .bf16⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000x128, .bf16⟩
  | .hbm, ⟨43, _⟩ => ⟨S1650000x128, .f32⟩
  | .hbm, ⟨44, _⟩ => ⟨S_, .f32⟩
  | .hbm, ⟨45, _⟩ => ⟨S50000x128, .f32⟩
  | .hbm, ⟨46, _⟩ => ⟨S1650000x1, .i32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x512, .f32⟩
  | .local _ .vmem, ⟨9, _⟩ => ⟨S2000x512, .f32⟩
  | .local _ .vmem, ⟨10, _⟩ => ⟨S2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x512_S128x512_0_0 : ∀ a, (![0, 0] : Fin 2 → Nat) a + S128x512.size a ≤ S128x512.size a
  h_S128x512 : 0 < S128x512.numel
  reduces_S2000x512_S2000 : S2000x512.Reduces [1] S2000
  shapeCasts_S2000_S2000x1 : S2000.ShapeCasts S2000x1
  broadcasts_S2000x1_S2000x512 : S2000x1.Broadcasts S2000x512
  dot_S2000x512_S512x128_S2000x128_1_0_0_1_n_n_wf : DotDims.WF S2000x512 S512x128 S2000x128 [1] [0] [0] [1] [] []
  scatter_S50000_S1650000x1_S1650000_n_0_0_1_wf : ScatterDims.WF S50000 S1650000x1 S1650000 [] [0] [0] 1
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x512 : Shape := ⟨2, ![128, 512]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x1 : Shape := ⟨2, ![50000, 1]⟩

abbrev nBuf : Space → Nat
  | .hbm => 86
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x512, .f32⟩
  | .hbm, ⟨5, _⟩ => ⟨S50000, .i32⟩
  | .hbm, ⟨6, _⟩ => ⟨S1x1600000, .i32⟩
  | .hbm, ⟨7, _⟩ => ⟨S1600000, .i32⟩
  | .hbm, ⟨8, _⟩ => ⟨S1650000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S_, .f32⟩
  | .hbm, ⟨13, _⟩ => ⟨S1650000, .f32⟩
  | .hbm, ⟨14, _⟩ => ⟨S_, .f32⟩
  | .hbm, ⟨15, _⟩ => ⟨S50000, .f32⟩
  | .hbm, ⟨16, _⟩ => ⟨S1650000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x512, .f32⟩
  | .hbm, ⟨72, _⟩ => ⟨S_, .f32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x512, .f32⟩
  | .hbm, ⟨79, _⟩ => ⟨S50000x512, .f32⟩
  | .hbm, ⟨80, _⟩ => ⟨S50000x512, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S50000x512, .f32⟩
  | .hbm, ⟨85, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_c_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x512_S50000_d1 : S50000x512.ReducesTo [1] S50000
  h_S_ : 0 < S_.numel
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x128_S50000x128_1_0_0_1_n_n_wf : DotDims.WF S50000x512 S512x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x512_S50000x512_1_0_0_1_n_n_wf : DotDims.WF S50000x128 S128x512 S50000x512 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf

class Facts : Prop extends Facts₀ where

variable [Facts]
-- ==== Proof.KernelRun.lean ====
/-
  The kernel program's run with its result named. The program is two pipelined regions with a stretch of host
  operations between them; every weakly fair execution terminates without a fault, the argument arrays end as launched,
  and the result array ends at what the second region's write-backs leave in it, folded over its 25 grid points from the
  contents the region found.
-/
import proofs.«144670_j43104291783484_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the two regions and the host stretch between them: the result array at the second region's folded
    write-backs, the five argument arrays as launched. -/
theorem run_named : θ_run defs (onTc (τ := τ) (main (F := F))) ⟨m, fun _ => 0, ρ⟩ (fun r => ∀ c : Dev nD,
      r.2.mem ((c.tc : Thread nD τ).loc main_v37) = (dat1 (V4 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v37 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Named

end
-- ==== Proof.HostStretch.lean ====
/-
  The host operations between the two regions, read back. From the arrays the first region leaves, they compute the
  edge lists (the given edges followed by one self-loop per node), every node's degree (a count of the edges aimed at it),
  the scale of a node (the inverse square root of the degree raised to at least one; zero for a node of degree zero), and the
  aggregated features: the encoded table scaled row by row, its rows gathered along the edges' sources and added up at
  the edges' targets, scaled row by row once more. The bias vector is laid out as one row. The second region finds these.
-/
import proofs.«144670_j43104291783484_2_alg».proof.Proof.Gen.KernelIdeal.Frame
import Idealize.ShloMosaic.Lib.StableHlo.Run
import Idealize.ShloMosaic.PureOps.Ideal.Laws

set_option maxRecDepth 16384

noncomputable section

namespace Cert.Bridge

open Cert.KernelIdeal Cert.KernelIdeal.Gen Idealize.ShloMosaic Idealize.ShloMosaic.TcCoe Idealize.SL.Sem Idealize.ShloMosaic.StableHlo

/-- The edges' target words: row 1 of the edge array, then the nodes' own numbers. -/
def kDst (ei : IVec S2x1600000 32) : IVec S1650000 32 :=
  concatenate S1650000 0 [⟨S1600000, shapeCast _ (extractStridedSlice S1x1600000 ![1, 0] ei slices_S2x1600000_S1x1600000_1_0) shapeCasts_S1x1600000_S1600000⟩,
    ⟨S50000, iotaInDim S50000 32 0⟩] concatenates_S1600000_S50000_S1650000_d0

/-- The edges' source words: row 0 of the edge array, then the nodes' own numbers. -/
def kSrc (ei : IVec S2x1600000 32) : IVec S1650000 32 :=
  concatenate S1650000 0 [⟨S1600000, shapeCast _ (extractStridedSlice S1x1600000 ![0, 0] ei slices_S2x1600000_S1x1600000_0_0) shapeCasts_S1x1600000_S1600000⟩,
    ⟨S50000, iotaInDim S50000 32 0⟩] concatenates_S1600000_S50000_S1650000_d0

/-- Every node's degree: one added per edge aimed at it. -/
def kDeg (ei : IVec S2x1600000 32) : FVec Ideal S50000 .f32 :=
  Host.scatterAdd (F := Ideal) scatter_S50000_S1650000x1_S1650000_n_0_0_1
    (broadcastInDim S50000 ![] bcast_S_S50000 (constant (F := Ideal) S_ .f32 0x00000000#32))
    (broadcastInDim S1650000x1 ![0] bcast_S1650000_S1650000x1_0 (kDst ei))
    (broadcastInDim S1650000 ![] bcast_S_S1650000 (constant (F := Ideal) S_ .f32 0x3F800000#32))

/-- Every node's scale: the inverse square root of its degree raised to at least one, zero at degree zero. -/
def kScale (ei : IVec S2x1600000 32) : FVec Ideal S50000 .f32 :=
  select (cmpf (F := Ideal) .ogt (kDeg ei) (broadcastInDim S50000 ![] bcast_S_S50000 (constant (F := Ideal) S_ .f32 0x00000000#32)))
    (Host.rsqrt (maximumf (kDeg ei) (broadcastInDim S50000 ![] bcast_S_S50000 (constant (F := Ideal) S_ .f32 0x3F800000#32))))
    (broadcastInDim S50000 ![] bcast_S_S50000 (id (constant (F := Ideal) S_ .f32 0x00000000#32)))

/-- An index word wrapped: a negative one has 50000 added. -/
def kWrap (v : IVec S1650000 32) : IVec S1650000 32 :=
  select (cmpi .slt v (broadcastInDim S1650000 ![] bcast_S_S1650000 (constantI S_ 32 0#32)))
    (addi v (broadcastInDim S1650000 ![] bcast_S_S1650000 (constantI S_ 32 50000#32))) v

/-- A per-node scale as a 50000 × 128 table, constant along each row. -/
def kRows (s : FVec Ideal S50000 .f32) : FVec Ideal S50000x128 .f32 :=
  broadcastInDim S50000x128 ![0, 1] bcast_S50000x1_S50000x128_0_1 (broadcastInDim S50000x1 ![0] bcast_S50000_S50000x1_0 s)

/-- The aggregation with scale `s`: the table `xw` scaled row by row, its rows gathered at the wrapped source words and
    added up at the target words, scaled row by row once more. -/
def kAggOf (s : FVec Ideal S50000 .f32) (xw : FVec Ideal S50000x128 .f32) (dst srcW : IVec S1650000 32) : FVec Ideal S50000x128 .f32 :=
  mulf (kRows s)
    (Host.scatterAdd (F := Ideal) scatter_S50000x128_S1650000x1_S1650000x128_1_0_0_1
      (broadcastInDim S50000x128 ![] bcast_S_S50000x128 (constant (F := Ideal) S_ .f32 0x00000000#32))
      (broadcastInDim S1650000x1 ![0] bcast_S1650000_S1650000x1_0 dst)
      (extf .f32 (Host.gather gather_S50000x128_S1650000x1_S1650000x128_1_0_n_n_0_1_1128
        (truncf .bf16 (mulf xw (kRows s)) bitsLt_bf16_f32)
        (broadcastInDim S1650000x1 ![0] bcast_S1650000_S1650000x1_0 srcW)) bitsLt_bf16_f32))

/-- The aggregated features from the encoded table `xw` and the edge array. -/
def kAgg (xw : FVec Ideal S50000x128 .f32) (ei : IVec S2x1600000 32) : FVec Ideal S50000x128 .f32 :=
  kAggOf (kScale ei) xw (kDst ei) (kWrap (kSrc ei))

variable (V : Valuation τ sig (Elt Ideal))

/-- Contents carried to a typed reference's buffer and back are the contents. -/
theorem ofBuf_toBuf' {T : BufTy} (x : TRef sig T) (v : T.Contents (Elt Ideal)) : x.ofBuf (x.toBuf v) = v := by
  obtain ⟨r, h, h1, h2⟩ := x
  subst h
  rfl

/-! ### The first stretch: edge lists, degrees, the two halves of the scale -/

theorem stretch1_dst : after hostOps1 V (Proc.devRef .tc main_v7) = kDst (V (Proc.devRef .tc main_arg1)) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

theorem stretch1_src : after hostOps1 V (Proc.devRef .tc main_v4) = kSrc (V (Proc.devRef .tc main_arg1)) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

theorem stretch1_pos : after hostOps1 V (Proc.devRef .tc main_v13)
    = cmpf (F := Ideal) .ogt (kDeg (V (Proc.devRef .tc main_arg1))) (broadcastInDim S50000 ![] bcast_S_S50000 (constant (F := Ideal) S_ .f32 0x00000000#32)) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

theorem stretch1_rsqrt : after hostOps1 V (Proc.devRef .tc main_v16)
    = Host.rsqrt (maximumf (kDeg (V (Proc.devRef .tc main_arg1))) (broadcastInDim S50000 ![] bcast_S_S50000 (constant (F := Ideal) S_ .f32 0x3F800000#32))) := by
  simp only [hostOps1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

theorem stretch1_zero : after hostOps1 V (Proc.devRef .tc main_cst_3) = constant (F := Ideal) S_ .f32 0x00000000#32 := by
  simp only [hostOps1]
  after_results_simp

theorem stretch1_keep_features : after hostOps1 V (Proc.devRef .tc main_v0) = V (Proc.devRef .tc main_v0) := by
  simp only [hostOps1]
  after_results_simp

theorem stretch1_keep_bias : after hostOps1 V (Proc.devRef .tc main_arg3) = V (Proc.devRef .tc main_arg3) := by
  simp only [hostOps1]
  after_results_simp

theorem stretch1_keep_decoder : after hostOps1 V (Proc.devRef .tc main_arg4) = V (Proc.devRef .tc main_arg4) := by
  simp only [hostOps1]
  after_results_simp

/-! ### The second stretch: the scale chosen by the degree's sign -/

theorem stretch2_scale : after hostOps1_1 V (Proc.devRef .tc main_v17)
    = select (V (Proc.devRef .tc main_v13)) (V (Proc.devRef .tc main_v16))
        (broadcastInDim S50000 ![] bcast_S_S50000 (id (V (Proc.devRef .tc main_cst_3)))) := by
  simp only [hostOps1_1]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  simp only [ofBuf_toBuf']
  rfl

theorem stretch2_keep (b : Ref sig .tc) (h0 : b ≠ main_call0_v0) (h1 : b ≠ main_call0_v1) (h2 : b ≠ main_v17) :
    after hostOps1_1 V (Proc.devRef .tc b) = V (Proc.devRef .tc b) :=
  after_of_forall_not_mem _ _ (List.forall_iff_forall_mem.mp (by
    simp only [hostOps1_1, List.Forall, StableHlo.unary_writes, StableHlo.ternary_writes, Finset.mem_singleton]
    exact ⟨StableHlo.devRef_ne_of_ne h0, StableHlo.devRef_ne_of_ne h1, StableHlo.devRef_ne_of_ne h2⟩))

/-! ### The third stretch: the aggregation, and the bias as one row -/

theorem stretch3_features : after hostOps1_2 V (Proc.devRef .tc main_v35)
    = kAggOf (V (Proc.devRef .tc main_v17)) (V (Proc.devRef .tc main_v0)) (V (Proc.devRef .tc main_v7))
        (kWrap (V (Proc.devRef .tc main_v4))) := by
  simp only [hostOps1_2]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

theorem stretch3_bias : after hostOps1_2 V (Proc.devRef .tc main_v36)
    = shapeCast S1x128 (V (Proc.devRef .tc main_arg3)) shapeCasts_S128_S1x128 := by
  simp only [hostOps1_2]
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  rfl

theorem stretch3_keep_decoder : after hostOps1_2 V (Proc.devRef .tc main_arg4) = V (Proc.devRef .tc main_arg4) := by
  simp only [hostOps1_2]
  after_results_simp

/-! ### What the second region finds -/

variable (m : (ℓ : Loc nD τ sig) → Buf (Elt Ideal) ℓ) (ρ : Dev nD → PrngReg)

/-- In its first operand's array: the aggregated features of what the first region left. -/
theorem entry_features (c : Dev nD) :
    V4 m ρ c main_v35 = kAgg (V1 m ρ c main_v0) (V1 m ρ c main_arg1) := by
  show after hostOps1_2 (after hostOps1_1 (after hostOps1 (W1 m ρ c))) (Proc.devRef .tc main_v35) = _
  rw [stretch3_features, stretch2_scale, stretch2_keep _ main_v0 (by decide) (by decide) (by decide),
    stretch2_keep _ main_v7 (by decide) (by decide) (by decide), stretch2_keep _ main_v4 (by decide) (by decide) (by decide),
    stretch1_pos, stretch1_rsqrt, stretch1_zero, stretch1_keep_features, stretch1_dst, stretch1_src]
  rfl

/-- In its second operand's array: the bias vector laid out as one row. -/
theorem entry_bias (c : Dev nD) :
    V4 m ρ c main_v36 = shapeCast S1x128 (V1 m ρ c main_arg3) shapeCasts_S128_S1x128 := by
  show after hostOps1_2 (after hostOps1_1 (after hostOps1 (W1 m ρ c))) (Proc.devRef .tc main_v36) = _
  rw [stretch3_bias, stretch2_keep _ main_arg3 (by decide) (by decide) (by decide), stretch1_keep_bias]

/-- In its third operand's array: the decoder table as the first region left it. -/
theorem entry_decoder (c : Dev nD) : V4 m ρ c main_arg4 = V1 m ρ c main_arg4 := by
  show after hostOps1_2 (after hostOps1_1 (after hostOps1 (W1 m ρ c))) (Proc.devRef .tc main_arg4) = _
  rw [stretch3_keep_decoder, stretch2_keep _ main_arg4 (by decide) (by decide) (by decide), stretch1_keep_decoder]

end Cert.Bridge

end
-- ==== Proof.LibMatmul.lean ====
/-
  A plain M × K by K × N matrix product into a zero accumulator, read at one entry: at the exact (extended real) values the
  entry (a, b) is the sum over the contracted coordinate c of A (a, c) · B (c, b) — no rounding and no chunk order left in it.
-/
import Idealize.ShloMosaic.Lib.ValueIdx
import Idealize.ShloMosaic.PureOps.Ideal.Laws

noncomputable section

open scoped BigOperators

namespace Cert.LibMatmul

open Idealize.ShloMosaic Idealize.ShloMosaic.ValueIdx

/-- The product of an `M × K` by a `K × N` matrix accumulated into the zero splat, at entry `(a, b)`, is
    `∑ c, A (a, c) · B (c, b)` over the extended reals. -/
theorem matmul_plain_zero_apply {M K N : Nat} {φ₁ φ₂ : FTy} (prec : Option ContractPrecision)
    (A : FVec Ideal ⟨2, ![M, K]⟩ φ₁) (B : FVec Ideal ⟨2, ![K, N]⟩ φ₂) (a : Fin M) (b : Fin N) :
    FloatOps.matmul (DotDims.plain M K N) prec A B (constant (F := Ideal) ⟨2, ![M, N]⟩ .f32 0x00000000#32) (ix2 a b)
      = ∑ c : Fin K, A (ix2 a c) * B (ix2 c b) := by
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.LibMatmul

end
-- ==== Proof.EncodeRegion.lean ====
/-
  The first region: every grid point t multiplies rows 2000·t … 2000·t + 1999 of x (all 512 columns) with the whole
  512 × 128 table W_enc and writes the 2000 × 128 product to the same rows of the output. The 25 row blocks tile the
  50000 rows, so after the region the output array holds x · W_enc, entry by entry, whatever the arrays held when the
  region was entered.
-/
import proofs.«144670_j43104291783484_2_alg».proof.Proof.Gen.KernelIdeal.Frame
import proofs.«144670_j43104291783484_2_alg».proof.Proof.LibMatmul
import Idealize.ShloMosaic.Lib.Pipeline.Value
import Idealize.ShloMosaic.Lib.ValueIdx

noncomputable section

open scoped BigOperators

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- The encoded features: entry (n, j) of x · W_enc over the extended reals. -/
def enc (X : S50000x512.Idx → EReal) (W : S512x128.Idx → EReal) : S50000x128.Idx → EReal :=
  fun i => ∑ k : Fin 512, X (ix2 (i 0) k) * W (ix2 k (i 1))

theorem zero_offsets : (![0, 0] : Fin 2 → Nat) = fun _ => 0 := funext fun a => by fin_cases a <;> rfl

/-- The body's product at an entry of the block. -/
theorem encode_payload (x0 : Vec Ideal S2000x512 .f32) (x1 : Vec Ideal S512x128 .f32) (p : Fin 2000) (q : Fin 128) :
    k0_pay1 (F := Ideal) x0 x1 (ix2 p q) = ∑ k : Fin 512, x0 (ix2 p k) * x1 (ix2 k q) :=
  Cert.LibMatmul.matmul_plain_zero_apply (M := 2000) (K := 512) (N := 128) none x0 x1 p q

/-- The index maps over the 25 grid points: the x block and the output block sit at the same row block, the column
    block is the only one, and the table's block is the whole table. -/
theorem encode_index_maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every one of the 25 row blocks is some grid point's. -/
theorem encode_blocks_onto : ∀ q0 : Fin 25, ∃ t : Fin cfg0.N, win0_2.index t = ![q0.val, 0] :=
  (by decide +kernel : ∀ q0 : Fin 25, ∃ t : Fin grid0.N, win0_2.index t = ![q0.val, 0])

variable (V : (c : Dev nD) → (b : Ref sig .tc) → Buf (Elt Ideal) ((c : Thread nD τ).loc b))

/-- What grid point t writes back is block t of x · W_enc, of the arrays as the region finds them. -/
theorem encode_flushed (c : Dev nD) (t : Fin cfg0.N) :
    (dat0 V c).flushed 2 t = ((cfg0.win 2).blk t).view.read (Elt Ideal) (enc (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x128) zero_offsets]
  obtain ⟨e0, e1, e2, e3, e4, e5⟩ := encode_index_maps t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = enc (V c main_arg0) (V c main_arg2) (((cfg0.win 2).blk t).view.emb (ix2 p q))
  refine (encode_payload _ _ p q).trans ?_
  unfold enc
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  rw [h0, h1]

/-- An index of the output array is in grid point t's block iff each coordinate is in the block's range. -/
theorem encode_mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every entry of the output array lies in some grid point's block: row n is in row block n / 2000. -/
theorem encode_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := encode_blocks_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [encode_mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the first region its output array is x · W_enc of the arrays the region found. -/
theorem encode_final (c : Dev nD) :
    (dat0 V c).arrAt 2 cfg0.N = enc (V c main_arg0) (V c main_arg2) :=
  (dat0 V c).arrAt_eq_of_cover 2 (enc (V c main_arg0) (V c main_arg2)) (fun t _ => encode_flushed V c t) encode_cover

end Cert.Bridge

end
-- ==== Proof.Rows.lean ====
/-
  The decode head of the graph auto-encoder, one row at a time, on the extended reals: the row of 128 aggregated features
  plus the bias is rectified, multiplied with the 128 × 512 decoder table, and the 512 logits are turned into a softmax
  (the exponentials of the logits less the row's maximum, divided by their sum). Both programs compute this function of a
  row; the kernel does it on blocks of 2000 rows, the reference on all 50000 rows at once.
-/
import Idealize.ShloMosaic.PureOps.Ideal
import Idealize.ShloMosaic.PureOps.Ideal.Laws

noncomputable section

open scoped BigOperators

namespace Cert.Bridge

open Idealize.ShloMosaic

/-- The maximum of 512 entries, taken from −∞ (the word `0xFF800000`). -/
def rowMax (l : Fin 512 → EReal) : EReal :=
  (Finset.univ : Finset (Fin 512)).fold max (Ideal.ofBits .f32 0xFF800000#32) l

/-- The 512 logits of a row: the rectified row against the decoder table. -/
def logits (zb : Fin 128 → EReal) (W : Fin 128 → Fin 512 → EReal) (q : Fin 512) : EReal :=
  ∑ k : Fin 128, max (zb k) 0 * W k q

/-- The softmax of 512 logits at column `q`. -/
def softmaxRow (l : Fin 512 → EReal) (q : Fin 512) : EReal :=
  Ideal.div (Ideal.exp (l q - rowMax l)) (∑ q' : Fin 512, Ideal.exp (l q' - rowMax l))

/-- One decoded row at column `q`. -/
def decodeRow (zb : Fin 128 → EReal) (W : Fin 128 → Fin 512 → EReal) (q : Fin 512) : EReal :=
  softmaxRow (logits zb W) q

/-- Taking the maximum with −∞ once more changes nothing: the fold already starts from −∞. -/
theorem max_neutral_rowMax (l : Fin 512 → EReal) :
    max (Ideal.ofBits .f32 0xFF800000#32) (rowMax l) = rowMax l :=
  max_eq_right ((Finset.le_fold_max _).2 (Or.inl le_rfl))

end Cert.Bridge

end
-- ==== Proof.DecodeKernel.lean ====
/-
  The second region's body read at an entry. Its payload is, on a block of 2000 rows, the function of Rows.lean row by
  row: the block's row plus the bias row is rectified and multiplied with the decoder table (the block of logits), the
  maximum of each row of logits is subtracted, the exponentials are taken and divided by their row sums. Each
  non-pointwise stage is read at an index by one small lemma (the column view of a vector, the column repeated over the
  512 columns, the matrix product into the zero accumulator, the maximum and the sum over the columns); the pointwise
  stages read through by computation.
-/
import proofs.«144670_j43104291783484_2_alg».proof.Proof.Gen.KernelIdeal.Skeleton
import proofs.«144670_j43104291783484_2_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx Cert.KernelIdeal

section Layout
variable {α : Type}

/-- A vector of 2000 entries viewed as a 2000 × 1 column reads, at row `p`, entry `p`. -/
theorem column_cast_apply (v : S2000.Idx → α) (h : S2000.ShapeCasts S2000x1) (p : Fin 2000) (u : Fin 1) :
    shapeCast S2000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A 2000 × 1 column repeated over 512 columns reads, at `(p, q)`, the column's entry `p`. -/
theorem column_broadcast_apply (v : S2000x1.Idx → α) (h : S2000x1.Broadcasts S2000x512) (p : Fin 2000) (q : Fin 512) :
    broadcastTo S2000x512 v h (ix2 p q) = v (ix2 p (0 : Fin 1)) := by
  refine broadcastTo_apply v h (ix2 p q) (ix2 p (0 : Fin 1)) fun ax => ?_
  match ax with
  | ⟨0, _⟩ =>
    show p.val = if (2000 : Nat) = 1 then 0 else p.val
    rw [if_neg (by decide)]
  | ⟨1, _⟩ => rfl

end Layout

section Product

theorem lhs_row (i : S2000x512.Idx) (c : dot_S2000x128_S128x512_S2000x512_1_0_0_1_n_n.contr.Idx) :
    (dot_S2000x128_S128x512_S2000x512_1_0_0_1_n_n.lhsIdx i c 0).val = (i 0).val := by
  unfold DotDims.lhsIdx
  rw [dif_neg (show ¬(0 : Fin S2000x128.rank) ∈ dot_S2000x128_S128x512_S2000x512_1_0_0_1_n_n.lhsBatch by decide),
    dif_pos (show (0 : Fin S2000x128.rank) ∈ dot_S2000x128_S128x512_S2000x512_1_0_0_1_n_n.lhsNonContracting by decide)]
  rfl

theorem rhs_col (i : S2000x512.Idx) (c : dot_S2000x128_S128x512_S2000x512_1_0_0_1_n_n.contr.Idx) :
    (dot_S2000x128_S128x512_S2000x512_1_0_0_1_n_n.rhsIdx i c 1).val = (i 1).val := by
  unfold DotDims.rhsIdx
  rw [dif_neg (show ¬(1 : Fin S128x512.rank) ∈ dot_S2000x128_S128x512_S2000x512_1_0_0_1_n_n.rhsBatch by decide),
    dif_pos (show (1 : Fin S128x512.rank) ∈ dot_S2000x128_S128x512_S2000x512_1_0_0_1_n_n.rhsNonContracting by decide)]
  rfl

/-- The block's matrix product into the zero accumulator, read at `(p, q)`: the sum over the 128 contracted
    coordinates of the products of row `p` of the left factor with column `q` of the right one. -/
theorem block_product_apply {φ₁ φ₂ : FTy} (A : FVec Ideal S2000x128 φ₁) (B : FVec Ideal S128x512 φ₂)
    (p : Fin 2000) (q : Fin 512) :
    matmul (F := Ideal) dot_S2000x128_S128x512_S2000x512_1_0_0_1_n_n none A B (constant (F := Ideal) S2000x512 .f32 0x00000000#32) (ix2 p q)
      = ∑ k : Fin 128, A (ix2 p k) * B (ix2 k q) := by
  show FloatOps.matmul dot_S2000x128_S128x512_S2000x512_1_0_0_1_n_n none A B (constant (F := Ideal) S2000x512 .f32 0x00000000#32) (ix2 p q) = _
  rw [Ideal.matmul_constant_zero_apply, ← Equiv.sum_comp (contrEquiv1 dot_S2000x128_S128x512_S2000x512_1_0_0_1_n_n 128 rfl rfl).symm]
  refine Finset.sum_congr rfl fun k _ => ?_
  have hk := contrEquiv1_symm_val dot_S2000x128_S128x512_S2000x512_1_0_0_1_n_n 128 rfl rfl k
  have el : dot_S2000x128_S128x512_S2000x512_1_0_0_1_n_n.lhsIdx (ix2 p q) ((contrEquiv1 dot_S2000x128_S128x512_S2000x512_1_0_0_1_n_n 128 rfl rfl).symm k) = ix2 p k :=
    funext fun a => Fin.ext (by
      match a with
      | ⟨0, _⟩ => exact lhs_row _ _
      | ⟨1, _⟩ => exact ((dot_S2000x128_S128x512_S2000x512_1_0_0_1_n_n).lhsIdx_val_of_single rfl _ _).trans hk)
  have er : dot_S2000x128_S128x512_S2000x512_1_0_0_1_n_n.rhsIdx (ix2 p q) ((contrEquiv1 dot_S2000x128_S128x512_S2000x512_1_0_0_1_n_n 128 rfl rfl).symm k) = ix2 k q :=
    funext fun a => Fin.ext (by
      match a with
      | ⟨0, _⟩ => exact ((dot_S2000x128_S128x512_S2000x512_1_0_0_1_n_n).rhsIdx_val_of_single rfl _ _).trans hk
      | ⟨1, _⟩ => exact rhs_col _ _)
  rw [el, er]

end Product

section Reductions

/-- The index of the 2000 × 512 block over row `p` whose column is `q`. -/
theorem lift_row (h : S2000x512.Reduces [1] S2000) (p : Fin 2000) (q : Fin 512) :
    h.lift (ix1 p) q = ix2 p q :=
  funext fun a => Fin.ext (by match a with | ⟨0, _⟩ => rfl | ⟨1, _⟩ => rfl)

/-- The maximum over the columns of the block, at row `p`, is the row's maximum taken from −∞. -/
theorem row_max_apply (v : FVec Ideal S2000x512 .f32) (h : S2000x512.Reduces [1] S2000) (hφ : FKind.Formats .f32)
    (hacc : (0xFF800000#32 : BitVec 32) = FKind.maximumf.neutral .f32 hφ) (p : Fin 2000) :
    multiReduction (F := Ideal) .maximumf [1] S2000 v 0xFF800000#32 h hφ hacc (ix1 p)
      = rowMax fun q => v (ix2 p q) := by
  refine (Ideal.multiReduction_maximumf_single v _ h hφ hacc (ix1 p)).trans ?_
  have e : (v ∘ h.lift (ix1 p)) = fun q : Fin 512 => v (ix2 p q) :=
    funext fun q => congrArg v (lift_row h p q)
  rw [e]
  rfl

/-- The sum over the columns of the block, at row `p`, is the row's sum. -/
theorem row_sum_apply (v : FVec Ideal S2000x512 .f32) (h : S2000x512.Reduces [1] S2000) (hφ : FKind.Formats .f32)
    (hacc : (0x00000000#32 : BitVec 32) = FKind.add.neutral .f32 hφ) (p : Fin 2000) :
    multiReduction (F := Ideal) .add [1] S2000 v 0x00000000#32 h hφ hacc (ix1 p)
      = ∑ q : Fin 512, v (ix2 p q) := by
  refine (Ideal.multiReduction_add_single v _ h hφ hacc (ix1 p)).trans ?_
  exact Finset.sum_congr rfl fun q _ => congrArg v (lift_row h p q)

end Reductions

section Block

/-- The block of logits: the rectified rows plus bias against the decoder table, as the body computes it. -/
def blockLogits (x0 : Vec Ideal S2000x128 .f32) (x1 : Vec Ideal S1x128 .f32) (x2 : Vec Ideal S128x512 .f32) :
    FVec Ideal S2000x512 .f32 :=
  matmul (F := Ideal) dot_S2000x128_S128x512_S2000x512_1_0_0_1_n_n none
    (truncf .bf16
      (maximumf
        (addf (shapeCast S2000x128 x0 Gen.shapeCasts_S2000x128_S2000x128)
          (broadcastTo S2000x128 (shapeCast S1x128 x1 Gen.shapeCasts_S1x128_S1x128) Gen.broadcasts_S1x128_S2000x128))
        (broadcast S2000x128 (Scalar.ofBits (F := Ideal) .f32 0x00000000#32)))
      Gen.bitsLt_bf16_f32 : FVec Ideal S2000x128 .bf16)
    (truncf .bf16 x2 Gen.bitsLt_bf16_f32 : FVec Ideal S128x512 .bf16)
    (constant (F := Ideal) S2000x512 .f32 0x00000000#32)

/-- The exponentials of a block of logits less each row's maximum, as the body computes them. -/
def blockExp (v : FVec Ideal S2000x512 .f32) : FVec Ideal S2000x512 .f32 :=
  exp (subf v
    (broadcastTo S2000x512
      (shapeCast S2000x1
        (multiReduction (F := Ideal) .maximumf [1] S2000 v 0xFF800000#32 Gen.reduces_S2000x512_S2000 (.inl rfl) rfl)
        Gen.shapeCasts_S2000_S2000x1)
      Gen.broadcasts_S2000x1_S2000x512))

/-- The softmax of a block of logits, as the body computes it. -/
def blockSoftmax (v : FVec Ideal S2000x512 .f32) : FVec Ideal S2000x512 .f32 :=
  divf (blockExp v)
    (broadcastTo S2000x512
      (shapeCast S2000x1
        (multiReduction (F := Ideal) .add [1] S2000 (blockExp v) 0x00000000#32 Gen.reduces_S2000x512_S2000 (.inl rfl) rfl)
        Gen.shapeCasts_S2000_S2000x1)
      Gen.broadcasts_S2000x1_S2000x512)

/-- The body's payload is the softmax of the block of logits. -/
theorem pay_eq_blocks (x0 : Vec Ideal S2000x128 .f32) (x1 : Vec Ideal S1x128 .f32) (x2 : Vec Ideal S128x512 .f32) :
    Cert.KernelIdeal.Gen.k1_pay1 (F := Ideal) x0 x1 x2 = blockSoftmax (blockLogits x0 x1 x2) := rfl

theorem blockLogits_apply (x0 : Vec Ideal S2000x128 .f32) (x1 : Vec Ideal S1x128 .f32) (x2 : Vec Ideal S128x512 .f32)
    (p : Fin 2000) (q : Fin 512) :
    blockLogits x0 x1 x2 (ix2 p q)
      = logits (fun k => x0 (ix2 p k) + x1 (ix2 0 k)) (fun k q' => x2 (ix2 k q')) q := by
  unfold blockLogits logits
  rw [block_product_apply]
  refine Finset.sum_congr rfl fun k _ => ?_
  show max (shapeCast S2000x128 x0 Gen.shapeCasts_S2000x128_S2000x128 (ix2 p k)
      + broadcastTo S2000x128 (shapeCast S1x128 x1 Gen.shapeCasts_S1x128_S1x128) Gen.broadcasts_S1x128_S2000x128 (ix2 p k))
      (Ideal.ofBits .f32 0x00000000#32) * x2 (ix2 k q) = _
  rw [shapeCast_self, shapeCast_self, broadcastTo_1b_ab_apply, Ideal.ofBits_zero_f32]

theorem blockExp_apply (v : FVec Ideal S2000x512 .f32) (p : Fin 2000) (q : Fin 512) :
    blockExp v (ix2 p q) = Ideal.exp (v (ix2 p q) - rowMax fun q' => v (ix2 p q')) := by
  unfold blockExp
  show Ideal.exp (v (ix2 p q) - broadcastTo S2000x512 _ Gen.broadcasts_S2000x1_S2000x512 (ix2 p q)) = _
  rw [column_broadcast_apply, column_cast_apply]
  exact congrArg (fun m => Ideal.exp (v (ix2 p q) - m)) (row_max_apply v _ _ _ p)

theorem blockSoftmax_apply (v : FVec Ideal S2000x512 .f32) (p : Fin 2000) (q : Fin 512) :
    blockSoftmax v (ix2 p q) = softmaxRow (fun q' => v (ix2 p q')) q := by
  unfold blockSoftmax softmaxRow
  show Ideal.div (blockExp v (ix2 p q)) (broadcastTo S2000x512 _ Gen.broadcasts_S2000x1_S2000x512 (ix2 p q)) = _
  rw [column_broadcast_apply, column_cast_apply]
  refine (congrArg (Ideal.div (blockExp v (ix2 p q))) (row_sum_apply (blockExp v) _ _ _ p)).trans ?_
  simp only [blockExp_apply]

end Block

/-- The body's payload at row `p` and column `q` of the block: the decoded row of the block's row `p` plus the bias,
    against the decoder table. -/
theorem pay_decode (x0 : Vec Ideal S2000x128 .f32) (x1 : Vec Ideal S1x128 .f32) (x2 : Vec Ideal S128x512 .f32)
    (p : Fin 2000) (q : Fin 512) :
    Cert.KernelIdeal.Gen.k1_pay1 (F := Ideal) x0 x1 x2 (ix2 p q)
      = decodeRow (fun k => x0 (ix2 p k) + x1 (ix2 0 k)) (fun k q' => x2 (ix2 k q')) q := by
  rw [pay_eq_blocks, blockSoftmax_apply]
  unfold decodeRow
  simp only [blockLogits_apply]

end Cert.Bridge

end
-- ==== Proof.DecodeRegion.lean ====
/-
  The second region: every grid point t takes rows 2000·t … 2000·t + 1999 of the aggregated features (all 128 columns),
  the one-row bias table and the whole 128 × 512 decoder table, and writes the decoded rows — softmax of the rectified,
  biased rows against the decoder table — to the same rows of the output. The 25 row blocks tile the 50000 rows, so after
  the region the output array is the decode head applied to every row, whatever the arrays held when it was entered.
-/
import proofs.«144670_j43104291783484_2_alg».proof.Proof.Gen.KernelIdeal.Frame
import proofs.«144670_j43104291783484_2_alg».proof.Proof.DecodeKernel
import proofs.«144670_j43104291783484_2_alg».proof.Proof.Rows
import Idealize.ShloMosaic.Lib.Pipeline.Value
import Idealize.ShloMosaic.Lib.ValueIdx

noncomputable section

open scoped BigOperators

namespace Cert.Bridge

open Cert.KernelIdeal Cert.KernelIdeal.Gen Idealize.ShloMosaic Idealize.ShloMosaic.TcCoe Idealize.SL.Sem
open Idealize.ShloMosaic.ValueIdx
open Idealize.ShloMosaic.Pipeline (Dat)

/-- The decoded table: row n is the decode head of row n of Z plus the bias row B, against the decoder table W. -/
def dec (Z : S50000x128.Idx → EReal) (B : S1x128.Idx → EReal) (W : S128x512.Idx → EReal) : S50000x512.Idx → EReal :=
  fun i => decodeRow (fun k => Z (ix2 (i 0) k) + B (ix2 (0 : Fin 1) k)) (fun k q' => W (ix2 k q')) (i 1)

theorem zero_offsets' : (![0, 0] : Fin 2 → Nat) = fun _ => 0 := funext fun a => by fin_cases a <;> rfl

/-- The index maps over the 25 grid points: the feature block and the output block sit at the same row block, the
    column block is the only one, and the bias and decoder blocks are the whole tables. -/
theorem decode_index_maps : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 24 :=
  (by decide +kernel : ∀ t : Fin grid1.N, _)

/-- Every one of the 25 row blocks is some grid point's. -/
theorem decode_blocks_onto : ∀ q0 : Fin 25, ∃ t : Fin cfg1.N, win1_3.index t = ![q0.val, 0] :=
  (by decide +kernel : ∀ q0 : Fin 25, ∃ t : Fin grid1.N, win1_3.index t = ![q0.val, 0])

variable (V : (c : Dev nD) → (b : Ref sig .tc) → Buf (Elt Ideal) ((c : Thread nD τ).loc b))

/-- What grid point t writes back is block t of the decoded table, of the arrays as the region finds them. -/
theorem decode_flushed (c : Dev nD) (t : Fin cfg1.N) :
    (dat1 V c).flushed 3 t
      = ((cfg1.win 3).blk t).view.read (Elt Ideal) (dec (V c main_v35) (V c main_v36) (V c main_arg4)) := by
  show (cfg1.win 3).cut (grid1.coords t) ((dat1 V c).after 3 t) = _
  rw [after1_3]
  unfold out1_3
  rw [View.canon_unit_zero zero_offsets']
  simp only [View.ld_unit_zero (S := S2000x128) zero_offsets', View.ld_unit_zero (S := S1x128) zero_offsets',
    View.ld_unit_zero (S := S128x512) zero_offsets']
  obtain ⟨e0, e1, e2, e3, e4, e5, e6, e7⟩ := decode_index_maps t
  funext j
  obtain ⟨p, q, rfl⟩ : ∃ (p : Fin 2000) (q : Fin 512), j = ix2 p q := ⟨j 0, j 1, eq_ix2 j⟩
  show k1_pay1 (F := Ideal) (iblk1 V c 0 t) (iblk1 V c 1 t) (iblk1 V c 2 t) (ix2 p q)
    = dec (V c main_v35) (V c main_v36) (V c main_arg4) (((cfg1.win 3).blk t).view.emb (ix2 p q))
  refine (pay_decode _ _ _ p q).trans ?_
  unfold dec
  have hq : (((cfg1.win 3).blk t).view.emb (ix2 p q)) 1 = q :=
    Fin.ext (by show win1_3.index t (1 : Fin 2) * 512 + 1 * q.val = q.val; omega)
  have hz : ∀ k : Fin 128, iblk1 V c 0 t (ix2 p k)
      = V c main_v35 (ix2 ((((cfg1.win 3).blk t).view.emb (ix2 p q)) 0) k) := fun k => by
    show V c main_v35 (((cfg1.win 0).blk t).view.emb (ix2 p k)) = _
    refine congrArg (V c main_v35) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * k.val = k.val; omega
  have hb : ∀ k : Fin 128, iblk1 V c 1 t (ix2 (0 : Fin 1) k) = V c main_v36 (ix2 (0 : Fin 1) k) := fun k => by
    show V c main_v36 (((cfg1.win 1).blk t).view.emb (ix2 (0 : Fin 1) k)) = _
    refine congrArg (V c main_v36) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  have hw : ∀ (k : Fin 128) (q' : Fin 512), iblk1 V c 2 t (ix2 k q') = V c main_arg4 (ix2 k q') := fun k q' => by
    show V c main_arg4 (((cfg1.win 2).blk t).view.emb (ix2 k q')) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 512 + 1 * q'.val = q'.val; omega
  rw [hq]
  simp only [hz, hb, hw]

/-- An index of the output array is in grid point t's block iff each coordinate is in the block's range. -/
theorem decode_mem_block (t : Fin cfg1.N) (i : S50000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v37).slice (win1_3.rect t)).set ↔ _
  rw [View.set_slice_whole, Rect.mem_set_unit]
  exact Iff.rfl

/-- Every entry of the output array lies in some grid point's block: row n is in row block n / 2000. -/
theorem decode_cover (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  obtain ⟨t, ht⟩ := decode_blocks_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [decode_mem_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 512 ≤ (i 1).val ∧ (i 1).val < win1_3.index t (1 : Fin 2) * 512 + 512; omega

/-- After the second region its output array is the decoded table of the arrays the region found. -/
theorem decode_final (c : Dev nD) :
    (dat1 V c).arrAt 3 cfg1.N = dec (V c main_v35) (V c main_v36) (V c main_arg4) :=
  (dat1 V c).arrAt_eq_of_cover 3 (dec (V c main_v35) (V c main_v36) (V c main_arg4)) (fun t _ => decode_flushed V c t) decode_cover

end Cert.Bridge

end
-- ==== Proof.KernelValue.lean ====
/-
  The kernel program's result array as a function of the five argument arrays: the second region's write-backs make it
  the decode head of what the region found; what it found is the aggregated features of the first region's product
  x · W_enc, the bias vector as one row, and the decoder table as launched.
-/
import proofs.«144670_j43104291783484_2_alg».proof.Proof.Gen.KernelIdeal.Frame
import proofs.«144670_j43104291783484_2_alg».proof.Proof.HostStretch
import proofs.«144670_j43104291783484_2_alg».proof.Proof.EncodeRegion
import proofs.«144670_j43104291783484_2_alg».proof.Proof.DecodeRegion

set_option maxRecDepth 16384

noncomputable section

namespace Cert.Bridge

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array after the run, from the launch contents of the arguments. -/
theorem kernel_value (c : Dev nD) :
    (dat1 (V4 m ρ) c).arrAt 3 cfg1.N
      = dec (kAgg (enc (m ((c : Thread nD τ).loc main_arg0)) (m ((c : Thread nD τ).loc main_arg2))) (m ((c : Thread nD τ).loc main_arg1)))
          (shapeCast S1x128 (m ((c : Thread nD τ).loc main_arg3)) shapeCasts_S128_S1x128) (m ((c : Thread nD τ).loc main_arg4)) := by
  rw [decode_final (V4 m ρ) c, entry_features, entry_bias, entry_decoder]
  have h0 : V1 m ρ c main_v0 = enc (m ((c : Thread nD τ).loc main_arg0)) (m ((c : Thread nD τ).loc main_arg2)) :=
    (W1_arr m ρ c 2).trans (encode_final (V0 m ρ) c)
  have h1 : V1 m ρ c main_arg1 = m ((c : Thread nD τ).loc main_arg1) := W1_of_ne m ρ c main_arg1 (by decide)
  have h3 : V1 m ρ c main_arg3 = m ((c : Thread nD τ).loc main_arg3) := W1_of_ne m ρ c main_arg3 (by decide)
  have h4 : V1 m ρ c main_arg4 = m ((c : Thread nD τ).loc main_arg4) := W1_of_ne m ρ c main_arg4 (by decide)
  rw [h0, h1, h3, h4]

end Cert.Bridge

end
-- ==== Proof.RefStages.lean ====
/-
  The reference's host operations, stage by stage, are the same terms as the kernel's host operations: the edge lists,
  the wrapped index words, the degrees and the scale are computed by the same operations of the edge array in both
  programs.
-/
import proofs.«144670_j43104291783484_2_alg».proof.Proof.HostStretch
import proofs.«144670_j43104291783484_2_alg».proof.Proof.RefReadP

set_option maxRecDepth 16384

noncomputable section

namespace Cert.Bridge

open Idealize.ShloMosaic
open Cert.ReferenceIdeal.ReadP

variable (x1 : IVec Cert.KernelIdeal.S2x1600000 32)

/-- The reference's target words are the kernel's. -/
theorem ref_dst : val_main_v6 (F := Ideal) x1 = kDst x1 := by
  unfold val_main_v6 val_main_v5 val_main_v4 val_main_v0 kDst
  rfl

/-- The reference's source words are the kernel's. -/
theorem ref_src : val_main_v3 (F := Ideal) x1 = kSrc x1 := by
  unfold val_main_v3 val_main_v2 val_main_v1 val_main_v0 kSrc
  rfl

/-- The wrapped source words the reference gathers the table rows at. -/
theorem ref_wrap_src_rows : val_main_v37 (F := Ideal) x1 = kWrap (kSrc x1) := by
  unfold val_main_v37 val_main_v36 val_main_v35 val_main_c_8 val_main_v34 val_main_v33 val_main_c_7
  rw [ref_src]
  rfl

/-- The wrapped source words the reference gathers the scale at. -/
theorem ref_wrap_src_scale : val_main_v21 (F := Ideal) x1 = kWrap (kSrc x1) := by
  unfold val_main_v21 val_main_v20 val_main_v19 val_main_c_4 val_main_v18 val_main_v17 val_main_c
  rw [ref_src]
  rfl

/-- The wrapped target words the reference gathers the scale at. -/
theorem ref_wrap_dst_scale : val_main_v28 (F := Ideal) x1 = kWrap (kDst x1) := by
  unfold val_main_v28 val_main_v27 val_main_v26 val_main_c_6 val_main_v25 val_main_v24 val_main_c_5
  rw [ref_dst]
  rfl

/-- The reference's degrees are the kernel's. -/
theorem ref_deg : val_main_v10 (F := Ideal) x1 = kDeg x1 := by
  unfold val_main_v10 val_main_v9 val_main_v8 val_main_cst_0 val_main_v7 val_main_cst
  rw [ref_dst]
  rfl

/-- The reference's scale is the kernel's. -/
theorem ref_scale : val_main_v16 (F := Ideal) x1 = kScale x1 := by
  unfold val_main_v16 val_main_v15 val_main_v14 val_main_v13 val_main_cst_2 val_main_v12 val_main_v11 val_main_cst_1
    val_main_call0_v1 val_main_call0_v0 val_main_cst_3
  rw [ref_deg]
  rfl

end Cert.Bridge

end
-- ==== Proof.LibLayout.lean ====
/-
  Layout facts about arrays of any element type, read at an entry: a one-row or one-column table repeated along the other
  axis; a vector laid out as one row or one column, by a cast or by a placement along an axis (the two agree);
  putting a coordinate back on the reduced axis 0.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibLayout

open Idealize.ShloMosaic Idealize.ShloMosaic.ValueIdx

variable {α : Type}

/-- A one-row table placed along both axes of an M × N array reads, at (a, b), the table at (0, b). -/
theorem rowInDim_apply {M N : Nat} (v : (⟨2, ![1, N]⟩ : Shape).Idx → α)
    (h : (⟨2, ![1, N]⟩ : Shape).BroadcastsInDim ⟨2, ![M, N]⟩ ![0, 1]) (a : Fin M) (b : Fin N) :
    broadcastInDim ⟨2, ![M, N]⟩ ![0, 1] h v (ix2 a b) = v (ix2 (0 : Fin 1) b) :=
  broadcastInDim_apply ![0, 1] h v (ix2 a b) (ix2 (0 : Fin 1) b) (fun c => by
    match c with
    | ⟨0, _⟩ => show (0 : Nat) = if (1 : Nat) = 1 then 0 else _; rw [if_pos rfl]
    | ⟨1, _⟩ =>
      show b.val = if N = 1 then 0 else b.val
      split
      · have := b.isLt; omega
      · rfl)

/-- A one-column table placed along both axes of an M × N array reads, at (a, b), the table at (a, 0). -/
theorem colInDim_apply {M N : Nat} (v : (⟨2, ![M, 1]⟩ : Shape).Idx → α)
    (h : (⟨2, ![M, 1]⟩ : Shape).BroadcastsInDim ⟨2, ![M, N]⟩ ![0, 1]) (a : Fin M) (b : Fin N) :
    broadcastInDim ⟨2, ![M, N]⟩ ![0, 1] h v (ix2 a b) = v (ix2 a (0 : Fin 1)) :=
  broadcastInDim_apply ![0, 1] h v (ix2 a b) (ix2 a (0 : Fin 1)) (fun c => by
    match c with
    | ⟨0, _⟩ =>
      show a.val = if M = 1 then 0 else a.val
      split
      · have := a.isLt; omega
      · rfl
    | ⟨1, _⟩ => show (0 : Nat) = if (1 : Nat) = 1 then 0 else _; rw [if_pos rfl])

/-- A vector placed along axis 1 of a 1 × N array reads, at (0, b), the vector at b. -/
theorem vecRow_apply {N : Nat} (v : (⟨1, ![N]⟩ : Shape).Idx → α)
    (h : (⟨1, ![N]⟩ : Shape).BroadcastsInDim ⟨2, ![1, N]⟩ ![1]) (b : Fin N) :
    broadcastInDim ⟨2, ![1, N]⟩ ![1] h v (ix2 (0 : Fin 1) b) = v (ix1 b) :=
  broadcastInDim_apply ![1] h v (ix2 (0 : Fin 1) b) (ix1 b) (fun c => by
    match c with
    | ⟨0, _⟩ =>
      show b.val = if N = 1 then 0 else b.val
      split
      · have := b.isLt; omega
      · rfl)

/-- A vector placed along axis 0 of an M × 1 array reads, at (a, 0), the vector at a. -/
theorem vecCol_apply {M : Nat} (v : (⟨1, ![M]⟩ : Shape).Idx → α)
    (h : (⟨1, ![M]⟩ : Shape).BroadcastsInDim ⟨2, ![M, 1]⟩ ![0]) (a : Fin M) :
    broadcastInDim ⟨2, ![M, 1]⟩ ![0] h v (ix2 a (0 : Fin 1)) = v (ix1 a) :=
  broadcastInDim_apply ![0] h v (ix2 a (0 : Fin 1)) (ix1 a) (fun c => by
    match c with
    | ⟨0, _⟩ =>
      show a.val = if M = 1 then 0 else a.val
      split
      · have := a.isLt; omega
      · rfl)

/-- A vector cast to one column reads, at (a, 0), the vector at a. -/
theorem castCol_apply {M : Nat} (v : (⟨1, ![M]⟩ : Shape).Idx → α) (h : (⟨1, ![M]⟩ : Shape).ShapeCasts ⟨2, ![M, 1]⟩) (a : Fin M) :
    shapeCast ⟨2, ![M, 1]⟩ v h (ix2 a (0 : Fin 1)) = v (ix1 a) :=
  shapeCast_apply v h _ _ (by
    rw [Shape.rowMajor_val_two, Shape.rowMajor_val_one]
    show a.val = a.val * 1 + 0
    omega)

/-- Laying a vector out as one row by a cast or by placing it along axis 1 gives the same array. -/
theorem castRow_eq {N : Nat} (v : (⟨1, ![N]⟩ : Shape).Idx → α) (h1 : (⟨1, ![N]⟩ : Shape).ShapeCasts ⟨2, ![1, N]⟩)
    (h2 : (⟨1, ![N]⟩ : Shape).BroadcastsInDim ⟨2, ![1, N]⟩ ![1]) :
    shapeCast ⟨2, ![1, N]⟩ v h1 = broadcastInDim ⟨2, ![1, N]⟩ ![1] h2 v := by
  funext j
  obtain ⟨z, b, rfl⟩ : ∃ (z : Fin 1) (b : Fin N), j = ix2 z b := ⟨j 0, j 1, eq_ix2 j⟩
  obtain rfl : z = 0 := Subsingleton.elim _ _
  rw [shapeCast_a_1a_apply, vecRow_apply]

/-- Laying a vector out as one column by a cast or by placing it along axis 0 gives the same array. -/
theorem castCol_eq {M : Nat} (v : (⟨1, ![M]⟩ : Shape).Idx → α) (h1 : (⟨1, ![M]⟩ : Shape).ShapeCasts ⟨2, ![M, 1]⟩)
    (h2 : (⟨1, ![M]⟩ : Shape).BroadcastsInDim ⟨2, ![M, 1]⟩ ![0]) :
    shapeCast ⟨2, ![M, 1]⟩ v h1 = broadcastInDim ⟨2, ![M, 1]⟩ ![0] h2 v := by
  funext j
  obtain ⟨a, z, rfl⟩ : ∃ (a : Fin M) (z : Fin 1), j = ix2 a z := ⟨j 0, j 1, eq_ix2 j⟩
  obtain rfl : z = 0 := Subsingleton.elim _ _
  rw [castCol_apply, vecCol_apply]

/-- A scalar placed along no axis reads the scalar everywhere. -/
theorem splat_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun c => c.elim0)

/-- Putting coordinate k back on axis 0 of a column index g gives the entry (k, g). -/
theorem lift_axis0 {m n : Nat} (h : (⟨2, ![m, n]⟩ : Shape).Reduces [0] (⟨1, ![n]⟩ : Shape)) (g : Fin n)
    (k : Fin ((⟨2, ![m, n]⟩ : Shape).size 0)) : h.lift (ix1 g) k = ix2 (⟨k.val, k.isLt⟩ : Fin m) g := by
  funext c; apply Fin.ext
  fin_cases c <;> rfl

end Cert.LibLayout

end
-- ==== Proof.Aggregate.lean ====
/-
  The graph aggregation on the extended reals. Each of the 1650000 edges e (1600000 given ones and one self-loop per node)
  carries the row of the source node's features to its target node: the rows are gathered at the source indices (read
  signed, negative ones wrapped by +50000 before, then clamped into the table) and added up at the target indices (read
  signed; an edge whose target is outside 0 … 49999 is dropped). The symmetric normalisation multiplies the row of edge e
  by s(src e) · s(dst e), where s n is the inverse square root of node n's degree (0 for an isolated node) — a real that
  is never negative. One program scales every gathered row by both factors before the sum; the other scales the table by s
  before the gather and the sum by s after it. They agree because every edge added at node n has target n, and a
  multiplication by a real that is not negative distributes over any sum of extended reals.
-/
import Idealize.ShloMosaic.Lib.ValueIdx
import Idealize.ShloMosaic.Lib.Pipeline.Value
import Idealize.ShloMosaic.PureOps.Ideal.Laws
import proofs.«144670_j43104291783484_2_alg».proof.Proof.LibLayout

noncomputable section

open scoped BigOperators

namespace Cert.Bridge

open Idealize.ShloMosaic Idealize.ShloMosaic.ValueIdx

abbrev sN : Shape := ⟨1, ![50000]⟩
abbrev sN1 : Shape := ⟨2, ![50000, 1]⟩
abbrev sNC : Shape := ⟨2, ![50000, 128]⟩
abbrev sE : Shape := ⟨1, ![1650000]⟩
abbrev sE1 : Shape := ⟨2, ![1650000, 1]⟩
abbrev sEC : Shape := ⟨2, ![1650000, 128]⟩

/-- Rows of a 50000 × 128 table taken at 1650000 row indices. -/
def gatherRows : GatherDims sNC sE1 sEC where
  offsetDims := [1]
  collapsedSliceDims := [0]
  operandBatchingDims := []
  startIndicesBatchingDims := []
  startIndexMap := [0]
  indexVectorDim := 1
  sliceSizes := ![1, 128]

/-- Entries of a vector of 50000 taken at 1650000 indices. -/
def gatherVec : GatherDims sN sE1 sE where
  offsetDims := []
  collapsedSliceDims := [0]
  operandBatchingDims := []
  startIndicesBatchingDims := []
  startIndexMap := [0]
  indexVectorDim := 1
  sliceSizes := ![1]

/-- 1650000 rows of 128 added into a 50000 × 128 table at 1650000 row indices. -/
def scatterRows : ScatterDims sNC sE1 sEC where
  updateWindowDims := [1]
  insertedWindowDims := [0]
  scatterDimsToOperandDims := [0]
  indexVectorDim := 1

/-- The table row a gather reads for an index word: the word read signed, clamped into 0 … 49999. -/
def rowOf (w : BitVec 32) : Fin 50000 := ⟨min w.toInt.toNat 49999, by omega⟩

/-- A row gather reads, at (e, j), the table at (row of the e-th index word, j). -/
theorem gatherRows_operandIdx (I : IVec sE1 32) (e : Fin 1650000) (j : Fin 128) :
    gatherRows.operandIdx (ix2 e j) I = ix2 (rowOf (I (ix2 e (0 : Fin 1)))) j := by
  funext a; refine Fin.ext ?_
  match a with
  | ⟨0, _⟩ =>
    show gatherRows.start (ix2 e j) I 0 + gatherRows.batchCoord (ix2 e j) 0 + gatherRows.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gatherRows.startIndexMap from List.mem_singleton.mpr rfl)]
    have hsi : gatherRows.siIdx (ix2 e j) ⟨List.idxOf (0 : Fin 2) gatherRows.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gatherRows.start (ix2 e j) I 1 + gatherRows.batchCoord (ix2 e j) 1 + gatherRows.offCoord (ix2 e j) 1 = _
    rw [GatherDims.batchCoord_eq_zero _ _ _ List.not_mem_nil]
    unfold GatherDims.start
    rw [dif_neg (show (1 : Fin 2) ∉ gatherRows.startIndexMap from by decide)]
    simp only [Nat.add_zero, Nat.zero_add]
    unfold GatherDims.offCoord
    rw [dif_pos (show (1 : Fin 2) ∈ gatherRows.sKept from by decide)]
    rfl

/-- A vector gather reads, at e, the vector at the row of the e-th index word. -/
theorem gatherVec_operandIdx (I : IVec sE1 32) (e : Fin 1650000) :
    gatherVec.operandIdx (ix1 e) I = ix1 (rowOf (I (ix2 e (0 : Fin 1)))) := by
  funext a; refine Fin.ext ?_
  match a with
  | ⟨0, _⟩ =>
    show gatherVec.start (ix1 e) I 0 + gatherVec.batchCoord (ix1 e) 0 + gatherVec.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gatherVec.startIndexMap from List.mem_singleton.mpr rfl)]
    have hsi : gatherVec.siIdx (ix1 e) ⟨List.idxOf (0 : Fin 1) gatherVec.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- An update row that lands on row i of the table has the index word whose signed value is i's row. -/
theorem scatterRows_target (I : IVec sE1 32) (e : Fin 1650000) (j : Fin 128) (i : sNC.Idx)
    (h : scatterRows.resultIdx? (ix2 e j) I = some i) : (I (ix2 e (0 : Fin 1))).toInt = ((i 0).val : Int) := by
  unfold ScatterDims.resultIdx? at h
  split at h
  · rename_i hb
    have hi := Option.some.inj h
    have h0 := hb 0
    have hsi : scatterRows.siIdx (ix2 e j) ⟨List.idxOf (0 : Fin 2) scatterRows.scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    have hst : scatterRows.start (ix2 e j) I 0 = (I (ix2 e (0 : Fin 1))).toInt := by
      unfold ScatterDims.start
      rw [dif_pos (show (0 : Fin 2) ∈ scatterRows.scatterDimsToOperandDims from List.mem_singleton.mpr rfl), hsi]
    have hw : scatterRows.window (ix2 e j) 0 = 0 := by
      unfold ScatterDims.window
      rw [dif_neg (show (0 : Fin 2) ∉ scatterRows.sKept from by decide)]
    have hv : ((i 0).val : Int) = scatterRows.start (ix2 e j) I 0 + (scatterRows.window (ix2 e j) 0 : Nat) := by
      rw [← hi]
      show (((scatterRows.start (ix2 e j) I 0 + (scatterRows.window (ix2 e j) 0 : Nat)).toNat : Nat) : Int) = _
      exact Int.toNat_of_nonneg h0.1
    rw [hv, hst, hw]; simp
  · exact absurd h (by simp)

/-- Multiplying by a real that is not negative distributes over a finite sum of extended reals. -/
theorem mul_sum_of_nonneg {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- An index word that is not negative, clamped into 0 … 49999, is itself when it is a row of the table. -/
theorem rowOf_eq (w : BitVec 32) (n : Fin 50000) (h : w.toInt = (n.val : Int)) : rowOf w = n := by
  apply Fin.ext
  show min w.toInt.toNat 49999 = n.val
  rw [h, Int.toNat_natCast]
  have := n.isLt
  omega

/-- THE AGGREGATION, both ways. `s` is the per-node scale (never negative, never +∞), `xw` the encoded table, `z0` the
    zero table the sums start from, `dst` the raw target words the sums are indexed by, `srcN` / `dstN` the wrapped
    source and target words the gathers read (`dstN e` is `dst e` when that is not negative). Scaling the table before the
    gather and the sums after it is scaling every gathered row by both factors. -/
theorem aggregate_eq (s : FVec Ideal sN .f32) (hs : ∀ n, 0 ≤ s n ∧ s n ≠ ⊤)
    (xw z0 : FVec Ideal sNC .f32) (hz : ∀ i, z0 i = 0)
    (dst srcN dstN : IVec sE 32) (hdst : ∀ e, 0 ≤ (dst e).toInt → dstN e = dst e)
    (hcol : sN.BroadcastsInDim sN1 ![0]) (hrows : sN1.BroadcastsInDim sNC ![0, 1])
    (hecol : sE.BroadcastsInDim sE1 ![0]) (herows : sE1.BroadcastsInDim sEC ![0, 1])
    (hlt : FTy.bits .bf16 < FTy.bits .f32) :
    mulf (broadcastInDim sNC ![0, 1] hrows (broadcastInDim sN1 ![0] hcol s))
      (Host.scatterAdd (F := Ideal) scatterRows z0 (broadcastInDim sE1 ![0] hecol dst)
        (extf .f32 (Host.gather gatherRows
          (truncf .bf16 (mulf xw (broadcastInDim sNC ![0, 1] hrows (broadcastInDim sN1 ![0] hcol s))) hlt)
          (broadcastInDim sE1 ![0] hecol srcN)) hlt))
    = Host.scatterAdd (F := Ideal) scatterRows z0 (broadcastInDim sE1 ![0] hecol dst)
        (mulf (Host.gather gatherRows xw (broadcastInDim sE1 ![0] hecol srcN))
          (broadcastInDim sEC ![0, 1] herows (broadcastInDim sE1 ![0] hecol
            (mulf (Host.gather gatherVec s (broadcastInDim sE1 ![0] hecol srcN))
              (Host.gather gatherVec s (broadcastInDim sE1 ![0] hecol dstN)))))) := by
  funext i
  obtain ⟨n, j, rfl⟩ : ∃ (n : Fin 50000) (j : Fin 128), i = ix2 n j := ⟨i 0, i 1, eq_ix2 i⟩
  show (broadcastInDim sNC ![0, 1] hrows (broadcastInDim sN1 ![0] hcol s)) (ix2 n j)
      * (z0 (ix2 n j) + ∑ u ∈ Finset.univ.filter (fun u => scatterRows.resultIdx? u (broadcastInDim sE1 ![0] hecol dst) = some (ix2 n j)), _)
    = z0 (ix2 n j) + ∑ u ∈ Finset.univ.filter (fun u => scatterRows.resultIdx? u (broadcastInDim sE1 ![0] hecol dst) = some (ix2 n j)), _
  rw [Cert.LibLayout.colInDim_apply, Cert.LibLayout.vecCol_apply, hz, zero_add, zero_add,
    mul_sum_of_nonneg _ _ (hs _).1 (hs _).2]
  refine Finset.sum_congr rfl fun u hu => ?_
  obtain ⟨e, k, rfl⟩ : ∃ (e : Fin 1650000) (k : Fin 128), u = ix2 e k := ⟨u 0, u 1, eq_ix2 u⟩
  have htgt := scatterRows_target _ e k _ (Finset.mem_filter.mp hu).2
  rw [Cert.LibLayout.vecCol_apply] at htgt
  have hnn : 0 ≤ (dst (ix1 e)).toInt := by rw [htgt]; exact Int.natCast_nonneg _
  have hrow : rowOf (dstN (ix1 e)) = n := by rw [hdst _ hnn]; exact rowOf_eq _ n htgt
  show s (ix1 n) * ((xw (gatherRows.operandIdx (ix2 e k) (broadcastInDim sE1 ![0] hecol srcN))
        * (broadcastInDim sNC ![0, 1] hrows (broadcastInDim sN1 ![0] hcol s)) (gatherRows.operandIdx (ix2 e k) (broadcastInDim sE1 ![0] hecol srcN))))
    = xw (gatherRows.operandIdx (ix2 e k) (broadcastInDim sE1 ![0] hecol srcN))
      * (broadcastInDim sEC ![0, 1] herows (broadcastInDim sE1 ![0] hecol
            (mulf (Host.gather gatherVec s (broadcastInDim sE1 ![0] hecol srcN))
              (Host.gather gatherVec s (broadcastInDim sE1 ![0] hecol dstN))))) (ix2 e k)
  rw [gatherRows_operandIdx, Cert.LibLayout.vecCol_apply (M := 1650000) srcN,
    Cert.LibLayout.colInDim_apply (M := 50000) (N := 128), Cert.LibLayout.vecCol_apply (M := 50000) s,
    Cert.LibLayout.colInDim_apply (M := 1650000) (N := 128),
    Cert.LibLayout.vecCol_apply (M := 1650000) (mulf (Host.gather gatherVec s (broadcastInDim sE1 ![0] hecol srcN))
      (Host.gather gatherVec s (broadcastInDim sE1 ![0] hecol dstN)))]
  show _ = _ * (s (gatherVec.operandIdx (ix1 e) (broadcastInDim sE1 ![0] hecol srcN))
      * s (gatherVec.operandIdx (ix1 e) (broadcastInDim sE1 ![0] hecol dstN)))
  rw [gatherVec_operandIdx, gatherVec_operandIdx, Cert.LibLayout.vecCol_apply (M := 1650000) srcN,
    Cert.LibLayout.vecCol_apply (M := 1650000) dstN, hrow, mul_comm (s (ix1 n)), mul_assoc]

/-- The scale of a node — the inverse square root of its degree raised to at least one, or zero — is a real that is
    not negative, whatever the degree. -/
theorem scale_ok (b : BitVec 1) (d one zero : EReal) (h1 : one = 1) (h0 : zero = 0) :
    0 ≤ Scalar.select b (Ideal.rsqrt (max d one)) zero ∧ Scalar.select b (Ideal.rsqrt (max d one)) zero ≠ ⊤ := by
  subst h1 h0
  unfold Scalar.select
  split
  · have h1 : (1 : EReal) ≤ max d 1 := le_max_right _ _
    generalize max d 1 = r at h1
    induction r using EReal.rec with
    | bot => exact absurd (le_bot_iff.mp h1) (by rw [← EReal.coe_one]; exact EReal.coe_ne_bot 1)
    | top => exact ⟨le_rfl, EReal.zero_ne_top⟩
    | coe r =>
      have hr : (1 : ℝ) ≤ r := by exact_mod_cast h1
      show 0 ≤ (if r < 0 then (⊥ : EReal) else if r = 0 then ⊤ else (((Real.sqrt r)⁻¹ : ℝ) : EReal))
        ∧ (if r < 0 then (⊥ : EReal) else if r = 0 then ⊤ else (((Real.sqrt r)⁻¹ : ℝ) : EReal)) ≠ ⊤
      rw [if_neg (by linarith), if_neg (by linarith)]
      exact ⟨EReal.coe_nonneg.2 (inv_nonneg.2 (Real.sqrt_nonneg r)), EReal.coe_ne_top _⟩
  · exact ⟨le_rfl, EReal.zero_ne_top⟩

/-- Wrapping a negative index word by +50000 leaves a word that is not negative as it is. -/
theorem wrap_of_nonneg (w z f : BitVec 32) (hz : z = 0#32) (h : 0 ≤ w.toInt) :
    Scalar.select (IntOp.cmpi .slt w z) (IntOp.addi w f) w = w := by
  subst hz
  have hs : w.slt 0#32 = false := by
    simp only [BitVec.slt, BitVec.toInt_zero, decide_eq_false_iff_not, not_lt]; exact h
  show (if BitVec.ofBool (w.slt 0#32) = 1 then IntOp.addi w f else w) = w
  rw [hs]; rfl

end Cert.Bridge

end
-- ==== Proof.Facts.lean ====
/-
  Three small facts the comparison of the two aggregations rests on: the reference's product of x and W_enc is the sum
  the first region writes; every node's scale is a real that is not negative; and wrapping leaves a target word that is
  not negative alone.
-/
import proofs.«144670_j43104291783484_2_alg».proof.Proof.HostStretch
import proofs.«144670_j43104291783484_2_alg».proof.Proof.Aggregate
import proofs.«144670_j43104291783484_2_alg».proof.Proof.EncodeRegion
import proofs.«144670_j43104291783484_2_alg».proof.Proof.RefReadP
import Idealize.ShloMosaic.Lib.IdealHost

set_option maxRecDepth 16384

noncomputable section

open scoped BigOperators

namespace Cert.Bridge

open Idealize.ShloMosaic Idealize.ShloMosaic.ValueIdx
open Cert.ReferenceIdeal.ReadP

/-- The reference's product of x and W_enc is the encoded table. -/
theorem ref_enc (x0 : FVec Ideal Cert.KernelIdeal.S50000x512 .f32) (x2 : FVec Ideal Cert.KernelIdeal.S512x128 .f32) :
    val_main_v32 (F := Ideal) x0 x2 = enc x0 x2 := by
  funext i
  rw [val_main_v32_apply]
  unfold enc
  refine Finset.sum_congr rfl fun k _ => ?_
  have hl : lidx_main_v32 i k = ix2 (i 0) k := funext fun a => Fin.ext (by
    match a with
    | ⟨0, _⟩ => rfl
    | ⟨1, _⟩ => rfl)
  have hr : ridx_main_v32 i k = ix2 k (i 1) := funext fun a => Fin.ext (by
    match a with
    | ⟨0, _⟩ => rfl
    | ⟨1, _⟩ => rfl)
  rw [hl, hr]
  rfl

open Cert.KernelIdeal Cert.KernelIdeal.Gen in
/-- A scale chosen between the inverse square root of a degree raised to at least one and zero is a real that is not
    negative, at every node, whatever the degrees. -/
theorem select_scale_ok (c : IVec S50000 1) (d one zero : FVec Ideal S50000 .f32) (n : S50000.Idx)
    (h1 : one n = 1) (h0 : zero n = 0) :
    0 ≤ select c (Host.rsqrt (maximumf d one)) zero n ∧ select c (Host.rsqrt (maximumf d one)) zero n ≠ ⊤ :=
  scale_ok (c n) (d n) (one n) (zero n) h1 h0

open Cert.KernelIdeal Cert.KernelIdeal.Gen in
/-- Every node's scale is a real that is not negative. -/
theorem kScale_ok (ei : IVec S2x1600000 32) (n : S50000.Idx) : 0 ≤ kScale ei n ∧ kScale ei n ≠ ⊤ := by
  have h1 : (broadcastInDim S50000 ![] bcast_S_S50000 (constant (F := Ideal) S_ .f32 0x3F800000#32)) n = 1 := by
    rw [Cert.LibLayout.splat_apply]; exact Ideal.ofBits_one_f32
  have h0 : (broadcastInDim S50000 ![] bcast_S_S50000 (id (constant (F := Ideal) S_ .f32 0x00000000#32))) n = 0 := by
    rw [Cert.LibLayout.splat_apply]; exact Ideal.ofBits_zero_f32
  unfold kScale
  exact select_scale_ok _ _ _ _ n h1 h0

open Cert.KernelIdeal Cert.KernelIdeal.Gen in
/-- A target word that is not negative is left alone by the wrap. -/
theorem kWrap_of_nonneg (v : IVec S1650000 32) (e : S1650000.Idx) (h : 0 ≤ (v e).toInt) : kWrap v e = v e := by
  have hz : (broadcastInDim S1650000 ![] bcast_S_S1650000 (constantI S_ 32 0#32)) e = 0#32 := by
    rw [Cert.LibLayout.splat_apply]; rfl
  exact wrap_of_nonneg (v e) _ ((broadcastInDim S1650000 ![] bcast_S_S1650000 (constantI S_ 32 50000#32)) e) hz h

end Cert.Bridge

end
-- ==== Proof.AggBridge.lean ====
/-
  The aggregations agree: the kernel's (scale the table, gather its rows along the edges' sources, add them up at the
  edges' targets, scale the sums) is the reference's (gather the rows, scale each by the source's and the target's
  factor, add them up). Both are spelt over the same edge lists, wrapped words and scale, so this is the algebraic fact
  about sums at a node (Proof/Aggregate.lean) at those terms.
-/
import proofs.«144670_j43104291783484_2_alg».proof.Proof.RefStages
import proofs.«144670_j43104291783484_2_alg».proof.Proof.Facts
import proofs.«144670_j43104291783484_2_alg».proof.Proof.Aggregate

set_option maxRecDepth 16384

noncomputable section

namespace Cert.Bridge

open Idealize.ShloMosaic
open Cert.ReferenceIdeal.ReadP

attribute [local irreducible] Host.scatterAdd Host.gather kScale kDst kSrc kWrap kDeg in
theorem agg_bridge (x0 : FVec Ideal Cert.KernelIdeal.S50000x512 .f32) (x1 : IVec Cert.KernelIdeal.S2x1600000 32)
    (x2 : FVec Ideal Cert.KernelIdeal.S512x128 .f32) :
    kAgg (val_main_v32 (F := Ideal) x0 x2) x1 = val_main_v45 (F := Ideal) x0 x1 x2 := by
  unfold val_main_v45 val_main_v44 val_main_v43 val_main_cst_9 val_main_v42 val_main_v41 val_main_v40 val_main_v39 val_main_v38
    val_main_v31 val_main_v30 val_main_v29 val_main_v23 val_main_v22
  rw [ref_dst, ref_wrap_src_rows, ref_wrap_src_scale, ref_wrap_dst_scale, ref_scale]
  unfold kAgg kAggOf kRows
  exact aggregate_eq (kScale x1) (kScale_ok x1) (val_main_v32 (F := Ideal) x0 x2)
    (broadcastInDim Cert.KernelIdeal.S50000x128 ![] Cert.KernelIdeal.Gen.bcast_S_S50000x128 (constant (F := Ideal) Cert.KernelIdeal.S_ .f32 0x00000000#32))
    (fun i => (Cert.LibLayout.splat_apply _ _ _).trans Ideal.ofBits_zero_f32)
    (kDst x1) (kWrap (kSrc x1)) (kWrap (kDst x1)) (fun e h => kWrap_of_nonneg _ e h)
    Cert.KernelIdeal.Gen.bcast_S50000_S50000x1_0 Cert.KernelIdeal.Gen.bcast_S50000x1_S50000x128_0_1
    Cert.KernelIdeal.Gen.bcast_S1650000_S1650000x1_0 Cert.ReferenceIdeal.Gen.bcast_S1650000x1_S1650000x128_0_1
    Cert.KernelIdeal.Gen.bitsLt_bf16_f32

end Cert.Bridge

end
-- ==== Proof.DecodeRef.lean ====
/-
  The reference's last stages read at an entry. From the aggregated rows (the scatter-add stage, kept as one opaque
  array) the reference adds the bias, rectifies, multiplies with the decoder table, takes each row's maximum (a fold from
  −∞ followed by one more maximum with −∞), subtracts it, exponentiates, sums each row from the zero word and divides:
  the function of Rows.lean at every row. Each stage is read at an index by its own equation; the row maximum, a fold
  over an axis, by the fold over that axis's 512 coordinates.
-/
import proofs.«144670_j43104291783484_2_alg».proof.Proof.RefReadP
import proofs.«144670_j43104291783484_2_alg».proof.Proof.Rows
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx Cert.ReferenceIdeal Cert.ReferenceIdeal.Gen Cert.ReferenceIdeal.ReadP

/-- The host's maximum over the columns, at row `n`: the fold of `max` from the initial value over the row. -/
theorem host_rowmax (y : S50000x512.Idx → EReal) (c : S_.Idx → EReal) (h' : S50000x512.ReducesTo [1] S50000)
    (hu : 0 < S_.numel) (n : Fin 50000) :
    Host.reduce (FloatOps.maximumf (F := Ideal) (φ := .f32)) y c h' hu (ix1 n)
      = (Finset.univ : Finset (Fin 512)).fold max (c (Shape.Idx.first hu)) (fun q : Fin 512 => y (ix2 n q)) := by
  refine (Host.reduce_eq_fold_single (FloatOps.maximumf (F := Ideal) (φ := .f32)) y c h' (by decide) hu (ix1 n)).trans ?_
  refine congrArg (fun f => (Finset.univ : Finset (Fin 512)).fold max (c (Shape.Idx.first hu)) f)
    (funext fun q => congrArg y ?_)
  exact funext fun a => Fin.ext (by match a with | ⟨0, _⟩ => rfl | ⟨1, _⟩ => rfl)

/-- The reference's 512 logits of row `n`: the rectified aggregated row plus bias against the decoder table. -/
theorem ref_logits (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x512, .f32⟩ : BufTy).Contents (Elt Ideal)) (n : Fin 50000) (q : Fin 512) :
    val_main_v50 (F := Ideal) x0 x1 x2 x3 x4 (ix2 n q)
      = logits (fun k => val_main_v45 (F := Ideal) x0 x1 x2 (ix2 n k) + x3 (ix1 k)) (fun k q' => x4 (ix2 k q')) q := by
  rw [val_main_v50_apply]
  unfold logits
  refine Finset.sum_congr rfl fun k _ => ?_
  have el : lidx_main_v50 (ix2 n q) k = ix2 n k :=
    funext fun a => Fin.ext (by match a with | ⟨0, _⟩ => rfl | ⟨1, _⟩ => rfl)
  have er : ridx_main_v50 (ix2 n q) k = ix2 k q :=
    funext fun a => Fin.ext (by match a with | ⟨0, _⟩ => rfl | ⟨1, _⟩ => rfl)
  have eb : idx_main_v46 (idx_main_v47 (ix2 n k)) = ix1 k :=
    funext fun a => Fin.ext (by match a with | ⟨0, _⟩ => rfl)
  rw [el, er, val_main_v49_apply, val_main_v48_apply, val_main_v47_apply, val_main_v46_apply, val_main_call1_v0_apply,
    val_main_call1_cst_apply, eb]
  simp only [Ideal.maximumf_def, Ideal.addf_def, Ideal.ofBits_def, Ideal.ofBits_zero_f32]

/-- The reference's row maximum (the fold from −∞, then the maximum with −∞ once more) is the row's maximum. -/
theorem ref_rowmax (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x512, .f32⟩ : BufTy).Contents (Elt Ideal)) (n : Fin 50000) :
    val_main_v53 (F := Ideal) x0 x1 x2 x3 x4 (ix1 n)
      = rowMax fun q => val_main_v50 (F := Ideal) x0 x1 x2 x3 x4 (ix2 n q) := by
  have e51 : val_main_v51 (F := Ideal) x0 x1 x2 x3 x4 (ix1 n)
      = rowMax fun q => val_main_v50 (F := Ideal) x0 x1 x2 x3 x4 (ix2 n q) :=
    host_rowmax _ _ _ _ n
  rw [val_main_v53_apply, val_main_v52_apply, val_main_cst_11_apply, e51]
  exact max_neutral_rowMax _

/-- The reference's exponential at `(n, q)`: of the logit less the row's maximum. -/
theorem ref_exp (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x512, .f32⟩ : BufTy).Contents (Elt Ideal)) (n : Fin 50000) (q : Fin 512) :
    val_main_v57 (F := Ideal) x0 x1 x2 x3 x4 (ix2 n q)
      = Ideal.exp (val_main_v50 (F := Ideal) x0 x1 x2 x3 x4 (ix2 n q)
          - rowMax fun q' => val_main_v50 (F := Ideal) x0 x1 x2 x3 x4 (ix2 n q')) := by
  have e : idx_main_v54 (idx_main_v55 (ix2 n q)) = ix1 n :=
    funext fun a => Fin.ext (by match a with | ⟨0, _⟩ => rfl)
  rw [val_main_v57_apply, val_main_v56_apply, val_main_v55_apply, val_main_v54_apply, e, ref_rowmax]
  simp only [Ideal.hostUnary_exp_def, Ideal.subf_def]

/-- The reference's row sum of the exponentials, from the zero word. -/
theorem ref_sum (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x512, .f32⟩ : BufTy).Contents (Elt Ideal)) (n : Fin 50000) :
    val_main_v58 (F := Ideal) x0 x1 x2 x3 x4 (ix1 n)
      = ∑ q : Fin 512, val_main_v57 (F := Ideal) x0 x1 x2 x3 x4 (ix2 n q) := by
  rw [val_main_v58_apply, val_main_cst_12_apply, Ideal.ofBits_def, Ideal.ofBits_zero_f32, zero_add]
  refine Finset.sum_congr rfl fun q _ => congrArg _ ?_
  exact funext fun a => Fin.ext (by match a with | ⟨0, _⟩ => rfl | ⟨1, _⟩ => rfl)

/-- The reference's last stage at row `n` and column `q`: the decoded row of the aggregated row `n` plus the bias,
    against the decoder table. -/
theorem ref_decode (x0 : (⟨S50000x512, .f32⟩ : BufTy).Contents (Elt Ideal)) (x1 : (⟨S2x1600000, .i32⟩ : BufTy).Contents (Elt Ideal)) (x2 : (⟨S512x128, .f32⟩ : BufTy).Contents (Elt Ideal)) (x3 : (⟨S128, .f32⟩ : BufTy).Contents (Elt Ideal)) (x4 : (⟨S128x512, .f32⟩ : BufTy).Contents (Elt Ideal)) (n : Fin 50000) (q : Fin 512) :
    val_main_v61 (F := Ideal) x0 x1 x2 x3 x4 (ix2 n q)
      = decodeRow (fun k => val_main_v45 (F := Ideal) x0 x1 x2 (ix2 n k) + x3 (ix1 k)) (fun k q' => x4 (ix2 k q')) q := by
  have e : idx_main_v59 (idx_main_v60 (ix2 n q)) = ix1 n :=
    funext fun a => Fin.ext (by match a with | ⟨0, _⟩ => rfl)
  rw [val_main_v61_apply, val_main_v60_apply, val_main_v59_apply, e, ref_sum]
  unfold decodeRow softmaxRow
  simp only [ref_exp, ref_logits, Ideal.hostDivf_def]

end Cert.Bridge

end
-- ==== Proof.Bridge.lean ====
/-
  The two programs compute one function of the five argument arrays. The kernel's result is the decode head applied to
  the aggregated features of x · W_enc with the bias laid out as a row; the reference's last stage is the decode head
  applied to its own aggregation plus the bias. The products agree, the aggregations agree, and a row cast of the bias
  reads the bias.
-/
import proofs.«144670_j43104291783484_2_alg».proof.Proof.AggBridge
import proofs.«144670_j43104291783484_2_alg».proof.Proof.Facts
import proofs.«144670_j43104291783484_2_alg».proof.Proof.DecodeRegion
import proofs.«144670_j43104291783484_2_alg».proof.Proof.DecodeRef
import Idealize.ShloMosaic.Lib.ValueLayout

set_option maxRecDepth 16384

noncomputable section

namespace Cert.Bridge

open Idealize.ShloMosaic Idealize.ShloMosaic.ValueIdx
open Cert.ReferenceIdeal.ReadP

attribute [local irreducible] Host.scatterAdd Host.gather kScale kDst kSrc kWrap kDeg kAgg in
/-- THE RESULTS AGREE: the decoded table of the kernel's aggregated features, bias row and decoder table is the
    reference's result, as functions of the five argument arrays. -/
theorem result_eq (x0 : FVec Ideal Cert.KernelIdeal.S50000x512 .f32) (x1 : IVec Cert.KernelIdeal.S2x1600000 32)
    (x2 : FVec Ideal Cert.KernelIdeal.S512x128 .f32) (x3 : FVec Ideal Cert.KernelIdeal.S128 .f32)
    (x4 : FVec Ideal Cert.KernelIdeal.S128x512 .f32) :
    dec (kAgg (enc x0 x2) x1) (shapeCast Cert.KernelIdeal.S1x128 x3 Cert.KernelIdeal.Gen.shapeCasts_S128_S1x128) x4
      = val_main_v61 (F := Ideal) x0 x1 x2 x3 x4 := by
  funext i
  obtain ⟨n, q, rfl⟩ : ∃ (n : Fin 50000) (q : Fin 512), i = ix2 n q := ⟨i 0, i 1, eq_ix2 i⟩
  rw [ref_decode, ← agg_bridge, ref_enc]
  unfold dec
  have hb : ∀ k : Fin 128, shapeCast Cert.KernelIdeal.S1x128 x3 Cert.KernelIdeal.Gen.shapeCasts_S128_S1x128 (ix2 (0 : Fin 1) k)
      = x3 (ix1 k) := fun k => shapeCast_a_1a_apply x3 _ 0 k
  show decodeRow (fun k => kAgg (enc x0 x2) x1 (ix2 n k)
      + shapeCast Cert.KernelIdeal.S1x128 x3 Cert.KernelIdeal.Gen.shapeCasts_S128_S1x128 (ix2 (0 : Fin 1) k)) (fun k q' => x4 (ix2 k q')) q = _
  simp only [hb]

end Cert.Bridge

end
-- ==== Proof.lean ====
/-
  The proof of `Cert.Claim` for a two-layer graph auto-encoder. The kernel program encodes the node features with one
  pipelined matrix product (x · W_enc, 2000 rows per grid point), aggregates along the 1650000 edges on the host with the
  symmetric normalisation split into a scale before the gather and a scale after the sum, and decodes with a second
  pipelined region (bias, rectifier, product with W_dec, softmax over the 512 columns, 2000 rows per grid point). The
  reference does all of it on the host, with the normalisation multiplied into every gathered row.

  The three frames: both kernel programs by the generated frame of their two regions, the reference by its run read back.
  The idealization rewrote nothing, so `preserves` is `True`. The algebraic claim: both programs end with the result array
  at one function of the five argument arrays — the kernel's by the folded write-backs of its regions
  (Proof/KernelRun.lean, Proof/KernelValue.lean), the reference's by its run, and the two functions are equal entry by
  entry (Proof/Bridge.lean: the products agree, the aggregations agree because a scale that is a real and not negative
  distributes over the sum at each node, and the decode head is the same function of a row).
-/
import proofs.«144670_j43104291783484_2_alg».proof.Defs
import proofs.«144670_j43104291783484_2_alg».proof.Proof.Gen.Kernel
import proofs.«144670_j43104291783484_2_alg».proof.Proof.Gen.Kernel.Frame
import proofs.«144670_j43104291783484_2_alg».proof.Proof.Gen.KernelIdeal
import proofs.«144670_j43104291783484_2_alg».proof.Proof.Gen.KernelIdeal.Frame
import proofs.«144670_j43104291783484_2_alg».proof.Proof.Gen.ReferenceIdeal
import proofs.«144670_j43104291783484_2_alg».proof.Proof.Gen.Pre_finite_inputs
import proofs.«144670_j43104291783484_2_alg».proof.Proof.RefRunP
import proofs.«144670_j43104291783484_2_alg».proof.Proof.RefReadP
import proofs.«144670_j43104291783484_2_alg».proof.Proof.KernelRun
import proofs.«144670_j43104291783484_2_alg».proof.Proof.KernelValue
import proofs.«144670_j43104291783484_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- And the idealized reference: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the five arguments both programs end with the result array at the decoded table of the
    aggregated features of x · W_enc. -/
theorem algebraic : Cert.algebraic_KernelIdeal_ReferenceIdeal := by
  intro m ρ m' ρ' _ hagree
  refine ⟨fun c => Cert.Bridge.dec
      (Cert.Bridge.kAgg (Cert.Bridge.enc (m ((c : Thread Cert.KernelIdeal.nD Cert.KernelIdeal.τ).loc Cert.KernelIdeal.main_arg0))
          (m ((c : Thread Cert.KernelIdeal.nD Cert.KernelIdeal.τ).loc Cert.KernelIdeal.main_arg2)))
        (m ((c : Thread Cert.KernelIdeal.nD Cert.KernelIdeal.τ).loc Cert.KernelIdeal.main_arg1)))
      (shapeCast Cert.KernelIdeal.S1x128 (m ((c : Thread Cert.KernelIdeal.nD Cert.KernelIdeal.τ).loc Cert.KernelIdeal.main_arg3))
        Cert.KernelIdeal.Gen.shapeCasts_S128_S1x128)
      (m ((c : Thread Cert.KernelIdeal.nD Cert.KernelIdeal.τ).loc Cert.KernelIdeal.main_arg4)), ?_, ?_⟩
  · exact (θ_run Cert.KernelIdeal.defs _ _).mono
      (fun r h c => ⟨(h c).1.trans (Cert.Bridge.kernel_value m ρ c), (h c).2⟩)
      (Cert.KernelIdeal.Named.run_named (F := Ideal) m ρ)
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v61_eq, (hagree c).1, (hagree c).2.1, (hagree c).2.2.1,
      (hagree c).2.2.2.1, (hagree c).2.2.2.2]
    exact (Cert.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
